-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1433 : Shape := ⟨2, ![50000, 1433]⟩
abbrev S2x1600000 : Shape := ⟨2, ![2, 1600000]⟩
abbrev S1433x128 : Shape := ⟨2, ![1433, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S_ : Shape := ⟨0, ![]⟩

class Facts : Prop where
  bcast_S_S50000x1433 : S_.BroadcastsInDim S50000x1433 (![] : Fin 0 → Fin S50000x1433.rank)
  reducesTo_S50000x1433_S_d0_1 : S50000x1433.ReducesTo [0, 1] S_
  h_S_ : 0 < S_.numel
  bcast_S_S1433x128 : S_.BroadcastsInDim S1433x128 (![] : Fin 0 → Fin S1433x128.rank)
  reducesTo_S1433x128_S_d0_1 : S1433x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part1 {F : FTy → Type} [FloatOps F] (main_arg5 : FVec F S128 .f32) (main_arg6 : FVec F S128x47 .f32) (main_arg7 : FVec F S47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x47 .f32 := Host.absf main_arg6
  let main_cst_8 : FVec F S_ .f32 := constant S_ .f32 0x7F800000#32
  let main_v25 : FVec F S128x47 .f32 := broadcastInDim S128x47 ![] bcast_S_S128x47 main_cst_8
  let main_v26 : IVec S128x47 1 := cmpf .olt main_v24 main_v25
  let main_c_9 : IVec S_ 1 := constantI S_ 1 1#1
  let main_v27 : IVec S_ 1 := (fun x v => Host.reduce IntOp.andi x v reducesTo_S128x47_S_d0_1 h_S_) main_v26 main_c_9
  let main_v28 : IVec S_ 1 := andi main_v23 main_v27
  let main_v29 : FVec F S47 .f32 := Host.absf main_arg7
  let main_cst_10 : FVec F S_ .f32 := constant S_ .f32 0x7F800000#32
  let main_v30 : FVec F S47 .f32 := broadcastInDim S47 ![] bcast_S_S47 main_cst_10
  let main_v31 : IVec S47 1 := cmpf .olt main_v29 main_v30
  let main_c_11 : IVec S_ 1 := constantI S_ 1 1#1
  let main_v32 : IVec S_ 1 := (fun x v => Host.reduce IntOp.andi x v reducesTo_S47_S_d0 h_S_) main_v31 main_c_11
  let main_v33 : IVec S_ 1 := andi main_v28 main_v32
  main_v33

def fn {F : FTy → Type} [FloatOps F] (main_arg0 : FVec F S50000x1433 .f32) (main_arg1 : IVec S2x1600000 32) (main_arg2 : FVec F S1433x128 .f32) (main_arg3 : FVec F S128 .f32) (main_arg4 : FVec F S128x128 .f32) (main_arg5 : FVec F S128 .f32) (main_arg6 : FVec F S128x47 .f32) (main_arg7 : FVec F S47 .f32) : IVec S_ 1 :=
  let main_v0 : FVec F S50000x1433 .f32 := Host.absf main_arg0
  let main_cst : FVec F S_ .f32 := constant S_ .f32 0x7F800000#32
  let main_v1 : FVec F S50000x1433 .f32 := broadcastInDim S50000x1433 ![] bcast_S_S50000x1433 main_cst
  let main_v2 : IVec S50000x1433 1 := cmpf .olt main_v0 main_v1
  let main_c : IVec S_ 1 := constantI S_ 1 1#1
  let main_v3 : IVec S_ 1 := (fun x v => Host.reduce IntOp.andi x v reducesTo_S50000x1433_S_d0_1 h_S_) main_v2 main_c
  let main_v4 : FVec F S1433x128 .f32 := Host.absf main_arg2
  let main_cst_0 : FVec F S_ .f32 := constant S_ .f32 0x7F800000#32
  let main_v5 : FVec F S1433x128 .f32 := broadcastInDim S1433x128 ![] bcast_S_S1433x128 main_cst_0
  let main_v6 : IVec S1433x128 1 := cmpf .olt main_v4 main_v5
  let main_c_1 : IVec S_ 1 := constantI S_ 1 1#1
  let main_v7 : IVec S_ 1 := (fun x v => Host.reduce IntOp.andi x v reducesTo_S1433x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x1433 : Shape := ⟨2, ![50000, 1433]⟩
abbrev S2x1600000 : Shape := ⟨2, ![2, 1600000]⟩
abbrev S1433x128 : Shape := ⟨2, ![1433, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1000x1433 : Shape := ⟨2, ![1000, 1433]⟩
abbrev S1000x128 : Shape := ⟨2, ![1000, 128]⟩
abbrev S1650000x128 : Shape := ⟨2, ![1650000, 128]⟩
abbrev S1x128 : Shape := ⟨2, ![1, 128]⟩
abbrev S50000x47 : Shape := ⟨2, ![50000, 47]⟩
abbrev S1000x47 : Shape := ⟨2, ![1000, 47]⟩
abbrev S1650000x47 : Shape := ⟨2, ![1650000, 47]⟩
abbrev S1x47 : Shape := ⟨2, ![1, 47]⟩

abbrev nBuf : Space → Nat
  | .hbm => 110
  | .vmem => 15
  | .smem => 0
  | _ => 0

abbrev bufTy : (tb : Table) → Fin (tcTables nBuf tb) → BufTy
  | .hbm, ⟨0, _⟩ => ⟨S50000x1433, .f32⟩
  | .hbm, ⟨1, _⟩ => ⟨S2x1600000, .i32⟩
  | .hbm, ⟨2, _⟩ => ⟨S1433x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x47, .f32⟩
  | .hbm, ⟨7, _⟩ => ⟨S47, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S1650000, .i32⟩
  | .hbm, ⟨27, _⟩ => ⟨S1650000, .i1⟩
  | .hbm, ⟨28, _⟩ => ⟨S_, .i32⟩
  | .hbm, ⟨29, _⟩ => ⟨S1650000, .i32⟩
  | .hbm, ⟨30, _⟩ => ⟨S1650000, .i32⟩
  | .hbm, ⟨31, _⟩ => ⟨S1650000, .i32⟩
  | .hbm, ⟨32, _⟩ => ⟨S1650000x1, .i32⟩
  | .hbm, ⟨33, _⟩ => ⟨S1650000, .f32⟩
  | .hbm, ⟨34, _⟩ => ⟨S_, .i32⟩
  | .hbm, ⟨35, _⟩ => ⟨S1650000, .i32⟩
  | .hbm, ⟨36, _⟩ => ⟨S1650000, .i1⟩
  | .hbm, ⟨37, _⟩ => ⟨S_, .i32⟩
  | .hbm, ⟨38, _⟩ => ⟨S1650000, .i32⟩
  | .hbm, ⟨39, _⟩ => ⟨S1650000, .i32⟩
  | .hbm, ⟨40, _⟩ => ⟨S1650000, .i32⟩
  | .hbm, ⟨41, _⟩ => ⟨S1650000x1, .i32⟩
  | .hbm, ⟨42, _⟩ => ⟨S1650000, .f32⟩
  | .hbm, ⟨43, _⟩ => ⟨S1650000, .f32⟩
  | .hbm, ⟨44, _⟩ => ⟨S50000x128, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000x128, .f32⟩
  | .hbm, ⟨54, _⟩ => ⟨S1650000x1, .f32⟩
  | .hbm, ⟨55, _⟩ => ⟨S1650000x128, .f32⟩
  | .hbm, ⟨56, _⟩ => ⟨S1650000x128, .f32⟩
  | .hbm, ⟨57, _⟩ => ⟨S_, .f32⟩
  | .hbm, ⟨58, _⟩ => ⟨S50000x128, .f32⟩
  | .hbm, ⟨59, _⟩ => ⟨S1650000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S1650000, .i32⟩
  | .hbm, ⟨70, _⟩ => ⟨S1650000, .i1⟩
  | .hbm, ⟨71, _⟩ => ⟨S_, .i32⟩
  | .hbm, ⟨72, _⟩ => ⟨S1650000, .i32⟩
  | .hbm, ⟨73, _⟩ => ⟨S1650000, .i32⟩
  | .hbm, ⟨74, _⟩ => ⟨S1650000, .i32⟩
  | .hbm, ⟨75, _⟩ => ⟨S1650000x1, .i32⟩
  | .hbm, ⟨76, _⟩ => ⟨S1650000x128, .f32⟩
  | .hbm, ⟨77, _⟩ => ⟨S1650000x1, .f32⟩
  | .hbm, ⟨78, _⟩ => ⟨S1650000x128, .f32⟩
  | .hbm, ⟨79, _⟩ => ⟨S1650000x128, .f32⟩
  | .hbm, ⟨80, _⟩ => ⟨S_, .f32⟩
  | .hbm, ⟨81, _⟩ => ⟨S50000x128, .f32⟩
  | .hbm, ⟨82, _⟩ => ⟨S1650000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x47, .f32⟩
  | .hbm, ⟨91, _⟩ => ⟨S_, .i32⟩
  | .hbm, ⟨92, _⟩ => ⟨S1650000, .i32⟩
  | .hbm, ⟨93, _⟩ => ⟨S1650000, .i1⟩
  | .hbm, ⟨94, _⟩ => ⟨S_, .i32⟩
  | .hbm, ⟨95, _⟩ => ⟨S1650000, .i32⟩
  | .hbm, ⟨96, _⟩ => ⟨S1650000, .i32⟩
  | .hbm, ⟨97, _⟩ => ⟨S1650000, .i32⟩
  | .hbm, ⟨98, _⟩ => ⟨S1650000x1, .i32⟩
  | .hbm, ⟨99, _⟩ => ⟨S1650000x47, .f32⟩
  | .hbm, ⟨100, _⟩ => ⟨S1650000x1, .f32⟩
  | .hbm, ⟨101, _⟩ => ⟨S1650000x47, .f32⟩
  | .hbm, ⟨102, _⟩ => ⟨S1650000x47, .f32⟩
  | .hbm, ⟨103, _⟩ => ⟨S_, .f32⟩
  | .hbm, ⟨104, _⟩ => ⟨S50000x47, .f32⟩
  | .hbm, ⟨105, _⟩ => ⟨S1650000x1, .i32⟩
  | .hbm, ⟨106, _⟩ => ⟨S50000x47, .f32⟩
  | .hbm, ⟨107, _⟩ => ⟨S1x47, .f32⟩
  | .hbm, ⟨108, _⟩ => ⟨S50000x47, .f32⟩
  | .hbm, ⟨109, _⟩ => ⟨S50000x47, .f32⟩
  | .local _ .vmem, ⟨0, _⟩ => ⟨S1000x1433, .f32⟩
  | .local _ .vmem, ⟨1, _⟩ => ⟨S1000x1433, .f32⟩
  | .local _ .vmem, ⟨2, _⟩ => ⟨S1433x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S128x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128x47, .f32⟩
  | .local _ .vmem, ⟨13, _⟩ => ⟨S1000x47, .f32⟩
  | .local _ .vmem, ⟨14, _⟩ => ⟨S1000x47, .f32⟩
  | _, _ => ⟨S50000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x47 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x47 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S1000x1433_S1000x1433_0_0 : ∀ a, (![0, 0] : Fin 2 → Nat) a + S1000x1433.size a ≤ S1000x1433.size a
  h_S1000x1433 : 0 < S1000x1433.numel
  bitsLt_bf16_f32 : FTy.bits .bf16 < FTy.bits .f32
  inb_S1433x128_S1433x128_0_0 : ∀ a, (![0, 0] : Fin 2 → Nat) a + S1433x128.size a ≤ S1433x128.size a
  h_S1433x128 : 0 < S1433x128.numel
  inb_S1000x128_S1000x128_0_0 : ∀ a, (![0, 0] : Fin 2 → Nat) a + S1000x128.size a ≤ S1000x128.size a
  h_S1000x128 : 0 < S1000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  inb_S128x47_S128x47_0_0 : ∀ a, (![0, 0] : Fin 2 → Nat) a + S128x47.size a ≤ S128x47.size a
  h_S128x47 : 0 < S128x47.numel
  inb_S1000x47_S1000x47_0_0 : ∀ a, (![0, 0] : Fin 2 → Nat) a + S1000x47.size a ≤ S1000x47.size a
  h_S1000x47 : 0 < S1000x47.numel
  bcast_S1650000x1_S1650000x47_0_1 : S1650000x1.BroadcastsInDim S1650000x47 (![0, 1] : Fin 2 → Fin S1650000x47.rank)
  bcast_S_S50000x47 : S_.BroadcastsInDim S50000x47 (![] : Fin 0 → Fin S50000x47.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S1000x1433_S1433x128_S1000x128_1_0_0_1_n_n_wf : DotDims.WF S1000x1433 S1433x128 S1000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S1000x128_S128x128_S1000x128_1_0_0_1_n_n_wf : DotDims.WF S1000x128 S128x128 S1000x128 [1] [0] [0] [1] [] []
  dot_S1000x128_S128x47_S1000x47_1_0_0_1_n_n_wf : DotDims.WF S1000x128 S128x47 S1000x47 [1] [0] [0] [1] [] []
  gather_S50000x47_S1650000x1_S1650000x47_1_0_n_n_0_1_147_wf : GatherDims.WF S50000x47 S1650000x1 S1650000x47 [1] [0] [] [0] [] 1 ![1, 47]
  scatter_S50000x47_S1650000x1_S1650000x47_1_0_0_1_wf : ScatterDims.WF S50000x47 S1650000x1 S1650000x47 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1433.size a ≤ S50000x1433.size a
  hwx0_0 : ∀ i : grid0.Coords, EltTy.bits .f32 = 32 ∨ (Rect.block (s := S50000x1433) S1000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x128.size a ≤ S1433x128.size a
  hwx0_1 : ∀ i : grid0.Coords, EltTy.bits .f32 = 32 ∨ (Rect.block (s := S1433x128) S1433x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S50000x128.size a
  hwx1_0 : ∀ i : grid1.Coords, EltTy.bits .f32 = 32 ∨ (Rect.block (s := S50000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x47.size a ≤ S128x47.size a
  hwx2_1 : ∀ i : grid2.Coords, EltTy.bits .f32 = 32 ∨ (Rect.block (s := S128x47) S128x47.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x47.size a ≤ S50000x47.size a
  hwx2_2 : ∀ i : grid2.Coords, EltTy.bits .f32 = 32 ∨ (Rect.block (s := S50000x47) S1000x47.size (cc2_transform_2 i) (hinb2_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S1000x1433_S1433x128_S1000x128_1_0_0_1_n_n : DotDims S1000x1433 S1433x128 S1000x128 where
  lhsContracting := [1]
  rhsContracting := [0]
  lhsNonContracting := [0]
  rhsNonContracting := [1]
  lhsBatch := []
  rhsBatch := []
  wf := dot_S1000x1433_S1433x128_S1000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x47_S1000x47_1_0_0_1_n_n : DotDims S1000x128 S128x47 S1000x47 where
  lhsContracting := [1]
  rhsContracting := [0]
  lhsNonContracting := [0]
  rhsNonContracting := [1]
  lhsBatch := []
  rhsBatch := []
  wf := dot_S1000x128_S128x47_S1000x47_1_0_0_1_n_n_wf
def gather_S50000x47_S1650000x1_S1650000x47_1_0_n_n_0_1_147 : GatherDims S50000x47 S1650000x1 S1650000x47 where
  offsetDims := [1]
  collapsedSliceDims := [0]
  operandBatchingDims := []
  startIndicesBatchingDims := []
  startIndexMap := [0]
  indexVectorDim := 1
  sliceSizes := ![1, 47]
  wf := gather_S50000x47_S1650000x1_S1650000x47_1_0_n_n_0_1_147_wf
def scatter_S50000x47_S1650000x1_S1650000x47_1_0_0_1 : ScatterDims S50000x47 S1650000x1 S1650000x47 where
  updateWindowDims := [1]
  insertedWindowDims := [0]
  scatterDimsToOperandDims := [0]
  indexVectorDim := 1
  wf := scatter_S50000x47_S1650000x1_S1650000x47_1_0_0_1_wf

abbrev win0_0 : Pipeline.Window sig grid0 :=
  Pipeline.Window.ofSpec (Memref.whole main_arg0) S1000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x47.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1000x47.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x1433 : Shape := ⟨2, ![50000, 1433]⟩
abbrev S2x1600000 : Shape := ⟨2, ![2, 1600000]⟩
abbrev S1433x128 : Shape := ⟨2, ![1433, 128]⟩
abbrev S128 : Shape := ⟨1, ![128]⟩
abbrev S128x128 : Shape := ⟨2, ![128, 128]⟩
abbrev S128x47 : Shape := ⟨2, ![128, 47]⟩
abbrev S47 : Shape := ⟨1, ![47]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x47 : Shape := ⟨2, ![50000, 47]⟩
abbrev S1650000x47 : Shape := ⟨2, ![1650000, 47]⟩
abbrev S1x47 : Shape := ⟨2, ![1, 47]⟩

abbrev nBuf : Space → Nat
  | .hbm => 110
  | .vmem => 0
  | .smem => 0
  | _ => 0

abbrev bufTy : (tb : Table) → Fin (tcTables nBuf tb) → BufTy
  | .hbm, ⟨0, _⟩ => ⟨S50000x1433, .f32⟩
  | .hbm, ⟨1, _⟩ => ⟨S2x1600000, .i32⟩
  | .hbm, ⟨2, _⟩ => ⟨S1433x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x47, .f32⟩
  | .hbm, ⟨7, _⟩ => ⟨S47, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S1650000, .i32⟩
  | .hbm, ⟨27, _⟩ => ⟨S1650000, .i1⟩
  | .hbm, ⟨28, _⟩ => ⟨S_, .i32⟩
  | .hbm, ⟨29, _⟩ => ⟨S1650000, .i32⟩
  | .hbm, ⟨30, _⟩ => ⟨S1650000, .i32⟩
  | .hbm, ⟨31, _⟩ => ⟨S1650000, .i32⟩
  | .hbm, ⟨32, _⟩ => ⟨S1650000x1, .i32⟩
  | .hbm, ⟨33, _⟩ => ⟨S1650000, .f32⟩
  | .hbm, ⟨34, _⟩ => ⟨S_, .i32⟩
  | .hbm, ⟨35, _⟩ => ⟨S1650000, .i32⟩
  | .hbm, ⟨36, _⟩ => ⟨S1650000, .i1⟩
  | .hbm, ⟨37, _⟩ => ⟨S_, .i32⟩
  | .hbm, ⟨38, _⟩ => ⟨S1650000, .i32⟩
  | .hbm, ⟨39, _⟩ => ⟨S1650000, .i32⟩
  | .hbm, ⟨40, _⟩ => ⟨S1650000, .i32⟩
  | .hbm, ⟨41, _⟩ => ⟨S1650000x1, .i32⟩
  | .hbm, ⟨42, _⟩ => ⟨S1650000, .f32⟩
  | .hbm, ⟨43, _⟩ => ⟨S1650000, .f32⟩
  | .hbm, ⟨44, _⟩ => ⟨S50000x128, .f32⟩
  | .hbm, ⟨45, _⟩ => ⟨S_, .i32⟩
  | .hbm, ⟨46, _⟩ => ⟨S1650000, .i32⟩
  | .hbm, ⟨47, _⟩ => ⟨S1650000, .i1⟩
  | .hbm, ⟨48, _⟩ => ⟨S_, .i32⟩
  | .hbm, ⟨49, _⟩ => ⟨S1650000, .i32⟩
  | .hbm, ⟨50, _⟩ => ⟨S1650000, .i32⟩
  | .hbm, ⟨51, _⟩ => ⟨S1650000, .i32⟩
  | .hbm, ⟨52, _⟩ => ⟨S1650000x1, .i32⟩
  | .hbm, ⟨53, _⟩ => ⟨S1650000x128, .f32⟩
  | .hbm, ⟨54, _⟩ => ⟨S1650000x1, .f32⟩
  | .hbm, ⟨55, _⟩ => ⟨S1650000x128, .f32⟩
  | .hbm, ⟨56, _⟩ => ⟨S1650000x128, .f32⟩
  | .hbm, ⟨57, _⟩ => ⟨S_, .f32⟩
  | .hbm, ⟨58, _⟩ => ⟨S50000x128, .f32⟩
  | .hbm, ⟨59, _⟩ => ⟨S1650000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S1650000, .i32⟩
  | .hbm, ⟨70, _⟩ => ⟨S1650000, .i1⟩
  | .hbm, ⟨71, _⟩ => ⟨S_, .i32⟩
  | .hbm, ⟨72, _⟩ => ⟨S1650000, .i32⟩
  | .hbm, ⟨73, _⟩ => ⟨S1650000, .i32⟩
  | .hbm, ⟨74, _⟩ => ⟨S1650000, .i32⟩
  | .hbm, ⟨75, _⟩ => ⟨S1650000x1, .i32⟩
  | .hbm, ⟨76, _⟩ => ⟨S1650000x128, .f32⟩
  | .hbm, ⟨77, _⟩ => ⟨S1650000x1, .f32⟩
  | .hbm, ⟨78, _⟩ => ⟨S1650000x128, .f32⟩
  | .hbm, ⟨79, _⟩ => ⟨S1650000x128, .f32⟩
  | .hbm, ⟨80, _⟩ => ⟨S_, .f32⟩
  | .hbm, ⟨81, _⟩ => ⟨S50000x128, .f32⟩
  | .hbm, ⟨82, _⟩ => ⟨S1650000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S_, .f32⟩
  | .hbm, ⟨88, _⟩ => ⟨S50000x128, .f32⟩
  | .hbm, ⟨89, _⟩ => ⟨S50000x128, .f32⟩
  | .hbm, ⟨90, _⟩ => ⟨S50000x47, .f32⟩
  | .hbm, ⟨91, _⟩ => ⟨S_, .i32⟩
  | .hbm, ⟨92, _⟩ => ⟨S1650000, .i32⟩
  | .hbm, ⟨93, _⟩ => ⟨S1650000, .i1⟩
  | .hbm, ⟨94, _⟩ => ⟨S_, .i32⟩
  | .hbm, ⟨95, _⟩ => ⟨S1650000, .i32⟩
  | .hbm, ⟨96, _⟩ => ⟨S1650000, .i32⟩
  | .hbm, ⟨97, _⟩ => ⟨S1650000, .i32⟩
  | .hbm, ⟨98, _⟩ => ⟨S1650000x1, .i32⟩
  | .hbm, ⟨99, _⟩ => ⟨S1650000x47, .f32⟩
  | .hbm, ⟨100, _⟩ => ⟨S1650000x1, .f32⟩
  | .hbm, ⟨101, _⟩ => ⟨S1650000x47, .f32⟩
  | .hbm, ⟨102, _⟩ => ⟨S1650000x47, .f32⟩
  | .hbm, ⟨103, _⟩ => ⟨S_, .f32⟩
  | .hbm, ⟨104, _⟩ => ⟨S50000x47, .f32⟩
  | .hbm, ⟨105, _⟩ => ⟨S1650000x1, .i32⟩
  | .hbm, ⟨106, _⟩ => ⟨S50000x47, .f32⟩
  | .hbm, ⟨107, _⟩ => ⟨S1x47, .f32⟩
  | .hbm, ⟨108, _⟩ => ⟨S50000x47, .f32⟩
  | .hbm, ⟨109, _⟩ => ⟨S50000x47, .f32⟩
  | _, _ => ⟨S50000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_c_11 : Ref sig .tc := ⟨.hbm, 91, rfl⟩
abbrev main_v66 : Ref sig .tc := ⟨.hbm, 92, rfl⟩
abbrev main_v67 : Ref sig .tc := ⟨.hbm, 93, rfl⟩
abbrev main_c_12 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x47_0_1 : S1650000x1.BroadcastsInDim S1650000x47 (![0, 1] : Fin 2 → Fin S1650000x47.rank)
  bcast_S_S50000x47 : S_.BroadcastsInDim S50000x47 (![] : Fin 0 → Fin S50000x47.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x1433_S1433x128_S50000x128_1_0_0_1_n_n_wf : DotDims.WF S50000x1433 S1433x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []
  gather_S50000x47_S1650000x1_S1650000x47_1_0_n_n_0_1_147_wf : GatherDims.WF S50000x47 S1650000x1 S1650000x47 [1] [0] [] [0] [] 1 ![1, 47]
  scatter_S50000x47_S1650000x1_S1650000x47_1_0_0_1_wf : ScatterDims.WF S50000x47 S1650000x1 S1650000x47 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x1433_S1433x128_S50000x128_1_0_0_1_n_n : DotDims S50000x1433 S1433x128 S50000x128 where
  lhsContracting := [1]
  rhsContracting := [0]
  lhsNonContracting := [0]
  rhsNonContracting := [1]
  lhsBatch := []
  rhsBatch := []
  wf := dot_S50000x1433_S1433x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf
def gather_S50000x47_S1650000x1_S1650000x47_1_0_n_n_0_1_147 : GatherDims S50000x47 S1650000x1 S1650000x47 where
  offsetDims := [1]
  collapsedSliceDims := [0]
  operandBatchingDims := []
  startIndicesBatchingDims := []
  startIndexMap := [0]
  indexVectorDim := 1
  sliceSizes := ![1, 47]
  wf := gather_S50000x47_S1650000x1_S1650000x47_1_0_n_n_0_1_147_wf
def scatter_S50000x47_S1650000x1_S1650000x47_1_0_0_1 : ScatterDims S50000x47 S1650000x1 S1650000x47 where
  updateWindowDims := [1]
  insertedWindowDims := [0]
  scatterDimsToOperandDims := [0]
  indexVectorDim := 1
  wf := scatter_S50000x47_S1650000x1_S1650000x47_1_0_0_1_wf

class Facts : Prop extends Facts₀ where

variable [Facts]
-- ==== Proof.ResultRun.lean ====
/-
  The idealized program's run with its RESULT named. @main is nine segments: a stretch of host operations, the first
  dense transform (region 0), two stretches, the second (region 1), two stretches, the third (region 2), and a last
  stretch. The buffer contents at each boundary are a fold from the launch memory: a stretch applies its operations; a
  region leaves its output array at what its write-backs add up to and every other buffer as it found it. Every weakly
  fair execution terminates without a fault in a state whose unscoped buffers hold the last boundary's contents; read at
  the result buffer that is the program's result, and read at the eight arguments it is the launch contents, since nothing
  writes an argument.
-/
import proofs.«176923_j69956427317871_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v81) = W9 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v81 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.ResultRun

end
-- ==== Proof.Product1.lean ====
/-
  The first dense transform. Region 0 of the program walks the 50 row blocks of 1000 rows of the left matrix
  (50000 × 1433); at block `t` it multiplies rows `1000·t … 1000·t + 999` by the WHOLE right matrix (1433 × 128), into a
  zero accumulator, and writes the 1000 × 128 result back as rows `1000·t … 1000·t + 999` of the output. At the ideal
  instance the change of float format before the product is the identity and the zero accumulator adds nothing, so entry
  `(r, q)` of block `t` is `∑ k, A (1000·t + r, k) · B (k, q)`: exactly entry `(1000·t + r, q)` of the whole product
  `A · B`. The 50 blocks tile the 50000 rows, so the array the region leaves is the whole product — the same sum the
  host's `dot_general` of the two arrays is, whatever the entries are (no finiteness is used: only the order-free
  finite sum of the extended reals).
-/
import proofs.«176923_j69956427317871_1_alg».proof.Proof.Gen.KernelIdeal.Frame
import proofs.«176923_j69956427317871_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen Idealize.ShloMosaic Idealize.ShloMosaic.TcCoe Idealize.SL.Sem
open Idealize.ShloMosaic.Pipeline (Dat)

/-! ## The product, entry by entry -/

/-- The left factor's index of the `k`-th term of entry `i` of the whole product: `(row of i, k)`. -/
abbrev li (i : S50000x128.Idx) (k : Fin 1433) : S50000x1433.Idx := fun a => match a with
  | ⟨0, _⟩ => ⟨(i 0).val, (i 0).isLt⟩
  | ⟨1, _⟩ => ⟨k.val, k.isLt⟩
/-- The right factor's index of that term: `(k, column of i)`. -/
abbrev ri (i : S50000x128.Idx) (k : Fin 1433) : S1433x128.Idx := fun a => match a with
  | ⟨0, _⟩ => ⟨k.val, k.isLt⟩
  | ⟨1, _⟩ => ⟨(i 1).val, (i 1).isLt⟩
/-- The same two indices inside one block of 1000 rows. -/
abbrev bli (j : S1000x128.Idx) (k : Fin 1433) : S1000x1433.Idx := fun a => match a with
  | ⟨0, _⟩ => ⟨(j 0).val, (j 0).isLt⟩
  | ⟨1, _⟩ => ⟨k.val, k.isLt⟩
abbrev bri (j : S1000x128.Idx) (k : Fin 1433) : S1433x128.Idx := fun a => match a with
  | ⟨0, _⟩ => ⟨k.val, k.isLt⟩
  | ⟨1, _⟩ => ⟨(j 1).val, (j 1).isLt⟩

/-- The whole product `A · B`, entry by entry, on the extended reals. -/
def prod (A : S50000x1433.Idx → Elt Ideal .f32) (B : S1433x128.Idx → Elt Ideal .f32) : S50000x128.Idx → Elt Ideal .f32 :=
  fun i => ∑ k : Fin 1433, A (li i k) * B (ri i k)

/-! ## One block: the body's product at an entry -/

theorem blk_lhs_0 (j : S1000x128.Idx) (q : dot_S1000x1433_S1433x128_S1000x128_1_0_0_1_n_n.contr.Idx) : (dot_S1000x1433_S1433x128_S1000x128_1_0_0_1_n_n.lhsIdx j q 0).val = (j 0).val := by
  unfold DotDims.lhsIdx
  rw [dif_neg (show ¬(0 : Fin S1000x1433.rank) ∈ dot_S1000x1433_S1433x128_S1000x128_1_0_0_1_n_n.lhsBatch by decide), dif_pos (show (0 : Fin S1000x1433.rank) ∈ dot_S1000x1433_S1433x128_S1000x128_1_0_0_1_n_n.lhsNonContracting by decide)]
  rfl
theorem blk_lhs_1 (j : S1000x128.Idx) (q : dot_S1000x1433_S1433x128_S1000x128_1_0_0_1_n_n.contr.Idx) : (dot_S1000x1433_S1433x128_S1000x128_1_0_0_1_n_n.lhsIdx j q 1).val = (q ⟨0, by decide⟩).val :=
  dot_S1000x1433_S1433x128_S1000x128_1_0_0_1_n_n.lhsIdx_val_of_single rfl j q
theorem blk_rhs_0 (j : S1000x128.Idx) (q : dot_S1000x1433_S1433x128_S1000x128_1_0_0_1_n_n.contr.Idx) : (dot_S1000x1433_S1433x128_S1000x128_1_0_0_1_n_n.rhsIdx j q 0).val = (q ⟨0, by decide⟩).val :=
  dot_S1000x1433_S1433x128_S1000x128_1_0_0_1_n_n.rhsIdx_val_of_single rfl j q
theorem blk_rhs_1 (j : S1000x128.Idx) (q : dot_S1000x1433_S1433x128_S1000x128_1_0_0_1_n_n.contr.Idx) : (dot_S1000x1433_S1433x128_S1000x128_1_0_0_1_n_n.rhsIdx j q 1).val = (j 1).val := by
  unfold DotDims.rhsIdx
  rw [dif_neg (show ¬(1 : Fin S1433x128.rank) ∈ dot_S1000x1433_S1433x128_S1000x128_1_0_0_1_n_n.rhsBatch by decide), dif_pos (show (1 : Fin S1433x128.rank) ∈ dot_S1000x1433_S1433x128_S1000x128_1_0_0_1_n_n.rhsNonContracting by decide)]
  rfl

/-- The body's stored value is the matrix product of its two loaded blocks into a zero accumulator (the format
    changes before it are the identity at the ideal instance). -/
theorem pay_eq (x0 : FVec Ideal S1000x1433 .f32) (x1 : FVec Ideal S1433x128 .f32) :
    k0_pay1 (F := Ideal) x0 x1 = FloatOps.matmul dot_S1000x1433_S1433x128_S1000x128_1_0_0_1_n_n none x0 x1 (constant (F := Ideal) S1000x128 .f32 0x00000000#32) := by
  unfold k0_pay1
  rfl

/-- Entry `j` of the block the body stores: the sum over `k` of the left block at `(row of j, k)` times the right
    matrix at `(k, column of j)`. -/
theorem pay_apply (x0 : FVec Ideal S1000x1433 .f32) (x1 : FVec Ideal S1433x128 .f32) (j : S1000x128.Idx) :
    k0_pay1 (F := Ideal) x0 x1 j = ∑ k : Fin 1433, x0 (bli j k) * x1 (bri j k) := by
  rw [pay_eq, Ideal.matmul_constant_zero_apply, ← Equiv.sum_comp (ValueIdx.contrEquiv1 dot_S1000x1433_S1433x128_S1000x128_1_0_0_1_n_n 1433 rfl rfl).symm]
  refine Finset.sum_congr rfl fun k _ => ?_
  have hk := ValueIdx.contrEquiv1_symm_val dot_S1000x1433_S1433x128_S1000x128_1_0_0_1_n_n 1433 rfl rfl k
  have el : dot_S1000x1433_S1433x128_S1000x128_1_0_0_1_n_n.lhsIdx j ((ValueIdx.contrEquiv1 dot_S1000x1433_S1433x128_S1000x128_1_0_0_1_n_n 1433 rfl rfl).symm k) = bli j k := funext fun a => Fin.ext (by
    match a with
    | ⟨0, _⟩ => exact blk_lhs_0 _ _
    | ⟨1, _⟩ => exact (blk_lhs_1 _ _).trans hk)
  have er : dot_S1000x1433_S1433x128_S1000x128_1_0_0_1_n_n.rhsIdx j ((ValueIdx.contrEquiv1 dot_S1000x1433_S1433x128_S1000x128_1_0_0_1_n_n 1433 rfl rfl).symm k) = bri j k := funext fun a => Fin.ext (by
    match a with
    | ⟨0, _⟩ => exact (blk_rhs_0 _ _).trans hk
    | ⟨1, _⟩ => exact blk_rhs_1 _ _)
  rw [el, er]

/-! ## Block `t` of the output is block `t` of the whole product -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 50 grid points: the left matrix's block and the output's block are both block row
    `t`; the right matrix is one block. -/
theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every block row of the output is some point's. -/
theorem idx_onto : ∀ q0 : Fin 50, ∃ t : Fin cfg0.N, win0_2.index t = ![q0.val, 0] :=
  (by decide +kernel : ∀ q0 : Fin 50, ∃ t : Fin grid0.N, win0_2.index t = ![q0.val, 0])

/-- What point `t` writes back is block `t` of the whole product of the two arrays as the region finds them: row `r` of
    the left block is row `1000·t + r` of the left array, and the right block is the right array. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S1000x1433) hz, View.ld_unit_zero (S := S1433x128) hz]
  obtain ⟨e0, e1, e2, e3, e4⟩ := idx_facts t
  funext j
  show k0_pay1 (F := Ideal) (iblk0 V c 0 t) (iblk0 V c 1 t) j = prod (V c main_arg0) (V c main_arg2) (((cfg0.win 2).blk t).view.emb j)
  refine (pay_apply (iblk0 V c 0 t) (iblk0 V c 1 t) j).trans ?_
  unfold prod
  refine Finset.sum_congr rfl fun k _ => ?_
  have h0 : iblk0 V c 0 t (bli j k) = V c main_arg0 (li (((cfg0.win 2).blk t).view.emb j) k) := by
    show V c main_arg0 (((cfg0.win 0).blk t).view.emb (bli j k)) = _
    refine congrArg (V c main_arg0) (funext fun a => Fin.ext ?_)
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 1433 + 1 * k.val = k.val; omega
  have h1 : iblk0 V c 1 t (bri j k) = V c main_arg2 (ri (((cfg0.win 2).blk t).view.emb j) k) := by
    show V c main_arg2 (((cfg0.win 1).blk t).view.emb (bri j k)) = _
    refine congrArg (V c main_arg2) (funext fun a => Fin.ext ?_)
    match a with
    | ⟨0, _⟩ => show win0_1.index t (0 : Fin 2) * 1433 + 1 * k.val = k.val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v29).slice (win0_2.rect t)).set ↔ _
  rw [View.set_slice_whole, Rect.mem_set_unit]
  exact Iff.rfl

/-- The 50 blocks of 1000 rows cover the 50000 rows: row `r` is in block `r / 1000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- The array the region leaves is the whole product of the two arrays it found. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) cover

end Blocks

/-! ## The host's `dot_general` is the same sum -/

theorem whole_lhs_0 (i : S50000x128.Idx) (q : Cert.ReferenceIdeal.dot_S50000x1433_S1433x128_S50000x128_1_0_0_1_n_n.contr.Idx) : (Cert.ReferenceIdeal.dot_S50000x1433_S1433x128_S50000x128_1_0_0_1_n_n.lhsIdx i q 0).val = (i 0).val := by
  unfold DotDims.lhsIdx
  rw [dif_neg (show ¬(0 : Fin S50000x1433.rank) ∈ Cert.ReferenceIdeal.dot_S50000x1433_S1433x128_S50000x128_1_0_0_1_n_n.lhsBatch by decide), dif_pos (show (0 : Fin S50000x1433.rank) ∈ Cert.ReferenceIdeal.dot_S50000x1433_S1433x128_S50000x128_1_0_0_1_n_n.lhsNonContracting by decide)]
  rfl
theorem whole_lhs_1 (i : S50000x128.Idx) (q : Cert.ReferenceIdeal.dot_S50000x1433_S1433x128_S50000x128_1_0_0_1_n_n.contr.Idx) : (Cert.ReferenceIdeal.dot_S50000x1433_S1433x128_S50000x128_1_0_0_1_n_n.lhsIdx i q 1).val = (q ⟨0, by decide⟩).val :=
  Cert.ReferenceIdeal.dot_S50000x1433_S1433x128_S50000x128_1_0_0_1_n_n.lhsIdx_val_of_single rfl i q
theorem whole_rhs_0 (i : S50000x128.Idx) (q : Cert.ReferenceIdeal.dot_S50000x1433_S1433x128_S50000x128_1_0_0_1_n_n.contr.Idx) : (Cert.ReferenceIdeal.dot_S50000x1433_S1433x128_S50000x128_1_0_0_1_n_n.rhsIdx i q 0).val = (q ⟨0, by decide⟩).val :=
  Cert.ReferenceIdeal.dot_S50000x1433_S1433x128_S50000x128_1_0_0_1_n_n.rhsIdx_val_of_single rfl i q
theorem whole_rhs_1 (i : S50000x128.Idx) (q : Cert.ReferenceIdeal.dot_S50000x1433_S1433x128_S50000x128_1_0_0_1_n_n.contr.Idx) : (Cert.ReferenceIdeal.dot_S50000x1433_S1433x128_S50000x128_1_0_0_1_n_n.rhsIdx i q 1).val = (i 1).val := by
  unfold DotDims.rhsIdx
  rw [dif_neg (show ¬(1 : Fin S1433x128.rank) ∈ Cert.ReferenceIdeal.dot_S50000x1433_S1433x128_S50000x128_1_0_0_1_n_n.rhsBatch by decide), dif_pos (show (1 : Fin S1433x128.rank) ∈ Cert.ReferenceIdeal.dot_S50000x1433_S1433x128_S50000x128_1_0_0_1_n_n.rhsNonContracting by decide)]
  rfl

/-- At the ideal instance the host's contraction of the left array's columns with the right array's rows is the product,
    entry by entry. -/
theorem dot_eq_prod (A : S50000x1433.Idx → Elt Ideal .f32) (B : S1433x128.Idx → Elt Ideal .f32) :
    Host.dotGeneral (F := Ideal) (φ₁ := .f32) (φ₂ := .f32) Cert.ReferenceIdeal.dot_S50000x1433_S1433x128_S50000x128_1_0_0_1_n_n none A B = prod A B := by
  funext i
  simp only [Host.dotGeneral]
  rw [Ideal.dotGeneral_apply, ← Equiv.sum_comp (ValueIdx.contrEquiv1 Cert.ReferenceIdeal.dot_S50000x1433_S1433x128_S50000x128_1_0_0_1_n_n 1433 rfl rfl).symm]
  unfold prod
  refine Finset.sum_congr rfl fun k _ => ?_
  have hk := ValueIdx.contrEquiv1_symm_val Cert.ReferenceIdeal.dot_S50000x1433_S1433x128_S50000x128_1_0_0_1_n_n 1433 rfl rfl k
  have el : Cert.ReferenceIdeal.dot_S50000x1433_S1433x128_S50000x128_1_0_0_1_n_n.lhsIdx i ((ValueIdx.contrEquiv1 Cert.ReferenceIdeal.dot_S50000x1433_S1433x128_S50000x128_1_0_0_1_n_n 1433 rfl rfl).symm k) = li i k := funext fun a => Fin.ext (by
    match a with
    | ⟨0, _⟩ => exact whole_lhs_0 _ _
    | ⟨1, _⟩ => exact (whole_lhs_1 _ _).trans hk)
  have er : Cert.ReferenceIdeal.dot_S50000x1433_S1433x128_S50000x128_1_0_0_1_n_n.rhsIdx i ((ValueIdx.contrEquiv1 Cert.ReferenceIdeal.dot_S50000x1433_S1433x128_S50000x128_1_0_0_1_n_n 1433 rfl rfl).symm k) = ri i k := funext fun a => Fin.ext (by
    match a with
    | ⟨0, _⟩ => exact (whole_rhs_0 _ _).trans hk
    | ⟨1, _⟩ => exact whole_rhs_1 _ _)
  rw [el, er]

end Cert.KernelIdeal.Product1

end
-- ==== Proof.Product2.lean ====
/-
  The second dense transform. Region 1 of the program walks the 50 row blocks of 1000 rows of the left matrix
  (50000 × 128); at block `t` it multiplies rows `1000·t … 1000·t + 999` by the WHOLE right matrix (128 × 128), into a
  zero accumulator, and writes the 1000 × 128 result back as rows `1000·t … 1000·t + 999` of the output. At the ideal
  instance the change of float format before the product is the identity and the zero accumulator adds nothing, so entry
  `(r, q)` of block `t` is `∑ k, A (1000·t + r, k) · B (k, q)`: exactly entry `(1000·t + r, q)` of the whole product
  `A · B`. The 50 blocks tile the 50000 rows, so the array the region leaves is the whole product — the same sum the
  host's `dot_general` of the two arrays is, whatever the entries are (no finiteness is used: only the order-free
  finite sum of the extended reals).
-/
import proofs.«176923_j69956427317871_1_alg».proof.Proof.Gen.KernelIdeal.Frame
import proofs.«176923_j69956427317871_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen Idealize.ShloMosaic Idealize.ShloMosaic.TcCoe Idealize.SL.Sem
open Idealize.ShloMosaic.Pipeline (Dat)

/-! ## The product, entry by entry -/

/-- The left factor's index of the `k`-th term of entry `i` of the whole product: `(row of i, k)`. -/
abbrev li (i : S50000x128.Idx) (k : Fin 128) : S50000x128.Idx := fun a => match a with
  | ⟨0, _⟩ => ⟨(i 0).val, (i 0).isLt⟩
  | ⟨1, _⟩ => ⟨k.val, k.isLt⟩
/-- The right factor's index of that term: `(k, column of i)`. -/
abbrev ri (i : S50000x128.Idx) (k : Fin 128) : S128x128.Idx := fun a => match a with
  | ⟨0, _⟩ => ⟨k.val, k.isLt⟩
  | ⟨1, _⟩ => ⟨(i 1).val, (i 1).isLt⟩
/-- The same two indices inside one block of 1000 rows. -/
abbrev bli (j : S1000x128.Idx) (k : Fin 128) : S1000x128.Idx := fun a => match a with
  | ⟨0, _⟩ => ⟨(j 0).val, (j 0).isLt⟩
  | ⟨1, _⟩ => ⟨k.val, k.isLt⟩
abbrev bri (j : S1000x128.Idx) (k : Fin 128) : S128x128.Idx := fun a => match a with
  | ⟨0, _⟩ => ⟨k.val, k.isLt⟩
  | ⟨1, _⟩ => ⟨(j 1).val, (j 1).isLt⟩

/-- The whole product `A · B`, entry by entry, on the extended reals. -/
def prod (A : S50000x128.Idx → Elt Ideal .f32) (B : S128x128.Idx → Elt Ideal .f32) : S50000x128.Idx → Elt Ideal .f32 :=
  fun i => ∑ k : Fin 128, A (li i k) * B (ri i k)

/-! ## One block: the body's product at an entry -/

theorem blk_lhs_0 (j : S1000x128.Idx) (q : dot_S1000x128_S128x128_S1000x128_1_0_0_1_n_n.contr.Idx) : (dot_S1000x128_S128x128_S1000x128_1_0_0_1_n_n.lhsIdx j q 0).val = (j 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem blk_lhs_1 (j : S1000x128.Idx) (q : dot_S1000x128_S128x128_S1000x128_1_0_0_1_n_n.contr.Idx) : (dot_S1000x128_S128x128_S1000x128_1_0_0_1_n_n.lhsIdx j q 1).val = (q ⟨0, by decide⟩).val :=
  dot_S1000x128_S128x128_S1000x128_1_0_0_1_n_n.lhsIdx_val_of_single rfl j q
theorem blk_rhs_0 (j : S1000x128.Idx) (q : dot_S1000x128_S128x128_S1000x128_1_0_0_1_n_n.contr.Idx) : (dot_S1000x128_S128x128_S1000x128_1_0_0_1_n_n.rhsIdx j q 0).val = (q ⟨0, by decide⟩).val :=
  dot_S1000x128_S128x128_S1000x128_1_0_0_1_n_n.rhsIdx_val_of_single rfl j q
theorem blk_rhs_1 (j : S1000x128.Idx) (q : dot_S1000x128_S128x128_S1000x128_1_0_0_1_n_n.contr.Idx) : (dot_S1000x128_S128x128_S1000x128_1_0_0_1_n_n.rhsIdx j q 1).val = (j 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The body's stored value is the matrix product of its two loaded blocks into a zero accumulator (the format
    changes before it are the identity at the ideal instance; the cast to the same shape is the identity). -/
theorem pay_eq (x0 : FVec Ideal S1000x128 .f32) (x1 : FVec Ideal S128x128 .f32) :
    k1_pay1 (F := Ideal) x0 x1 = FloatOps.matmul dot_S1000x128_S128x128_S1000x128_1_0_0_1_n_n none x0 x1 (constant (F := Ideal) S1000x128 .f32 0x00000000#32) := by
  unfold k1_pay1
  rw [shapeCast_self]
  rfl

/-- Entry `j` of the block the body stores: the sum over `k` of the left block at `(row of j, k)` times the right
    matrix at `(k, column of j)`. -/
theorem pay_apply (x0 : FVec Ideal S1000x128 .f32) (x1 : FVec Ideal S128x128 .f32) (j : S1000x128.Idx) :
    k1_pay1 (F := Ideal) x0 x1 j = ∑ k : Fin 128, x0 (bli j k) * x1 (bri j k) := by
  rw [pay_eq, Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx j ((ValueIdx.contrEquiv1 dot_S1000x128_S128x128_S1000x128_1_0_0_1_n_n 128 rfl rfl).symm k) = bli j k := funext fun a => Fin.ext (by
    match a with
    | ⟨0, _⟩ => exact blk_lhs_0 _ _
    | ⟨1, _⟩ => exact (blk_lhs_1 _ _).trans hk)
  have er : dot_S1000x128_S128x128_S1000x128_1_0_0_1_n_n.rhsIdx j ((ValueIdx.contrEquiv1 dot_S1000x128_S128x128_S1000x128_1_0_0_1_n_n 128 rfl rfl).symm k) = bri j k := funext fun a => Fin.ext (by
    match a with
    | ⟨0, _⟩ => exact (blk_rhs_0 _ _).trans hk
    | ⟨1, _⟩ => exact blk_rhs_1 _ _)
  rw [el, er]

/-! ## Block `t` of the output is block `t` of the whole product -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 50 grid points: the left matrix's block and the output's block are both block row
    `t`; the right matrix is one block. -/
theorem idx_facts : ∀ t : Fin cfg1.N, win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every block row of the output is some point's. -/
theorem idx_onto : ∀ q0 : Fin 50, ∃ t : Fin cfg1.N, win1_2.index t = ![q0.val, 0] :=
  (by decide +kernel : ∀ q0 : Fin 50, ∃ t : Fin grid1.N, win1_2.index t = ![q0.val, 0])

/-- What point `t` writes back is block `t` of the whole product of the two arrays as the region finds them: row `r` of
    the left block is row `1000·t + r` of the left array, and the right block is the right array. -/
theorem flushed_eq (c : Dev nD) (t : Fin cfg1.N) :
    (dat1 V c).flushed 2 t = ((cfg1.win 2).blk t).view.read (Elt Ideal) (prod (V c main_v46) (V c main_arg4)) := by
  show (cfg1.win 2).cut (grid1.coords t) ((dat1 V c).after 2 t) = _
  rw [after1_2]
  unfold out1_2
  rw [View.canon_unit_zero hz]
  simp only [View.ld_unit_zero (S := S1000x128) hz, View.ld_unit_zero (S := S128x128) hz]
  obtain ⟨e0, e1, e2, e3, e4⟩ := idx_facts t
  funext j
  show k1_pay1 (F := Ideal) (iblk1 V c 0 t) (iblk1 V c 1 t) j = prod (V c main_v46) (V c main_arg4) (((cfg1.win 2).blk t).view.emb j)
  refine (pay_apply (iblk1 V c 0 t) (iblk1 V c 1 t) j).trans ?_
  unfold prod
  refine Finset.sum_congr rfl fun k _ => ?_
  have h0 : iblk1 V c 0 t (bli j k) = V c main_v46 (li (((cfg1.win 2).blk t).view.emb j) k) := by
    show V c main_v46 (((cfg1.win 0).blk t).view.emb (bli j k)) = _
    refine congrArg (V c main_v46) (funext fun a => Fin.ext ?_)
    match a with
    | ⟨0, _⟩ => show win1_0.index t (0 : Fin 2) * 1000 + 1 * (j 0).val = win1_2.index t (0 : Fin 2) * 1000 + 1 * (j 0).val; omega
    | ⟨1, _⟩ => show win1_0.index t (1 : Fin 2) * 128 + 1 * k.val = k.val; omega
  have h1 : iblk1 V c 1 t (bri j k) = V c main_arg4 (ri (((cfg1.win 2).blk t).view.emb j) k) := by
    show V c main_arg4 (((cfg1.win 1).blk t).view.emb (bri j k)) = _
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v47).slice (win1_2.rect t)).set ↔ _
  rw [View.set_slice_whole, Rect.mem_set_unit]
  exact Iff.rfl

/-- The 50 blocks of 1000 rows cover the 50000 rows: row `r` is in block `r / 1000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 1000, by omega⟩
  have q0 : win1_2.index t (0 : Fin 2) = (i 0).val / 1000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 128 ≤ (i 1).val ∧ (i 1).val < win1_2.index t (1 : Fin 2) * 128 + 128; omega

/-- The array the region leaves is the whole product of the two arrays it found. -/
theorem final (c : Dev nD) : (dat1 V c).arrAt 2 cfg1.N = prod (V c main_v46) (V c main_arg4) :=
  (dat1 V c).arrAt_eq_of_cover 2 (prod (V c main_v46) (V c main_arg4)) (fun t _ => flushed_eq V c t) cover

end Blocks

/-! ## The host's `dot_general` is the same sum -/

theorem whole_lhs_0 (i : S50000x128.Idx) (q : Cert.ReferenceIdeal.dot_S50000x128_S128x128_S50000x128_1_0_0_1_n_n.contr.Idx) : (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem whole_lhs_1 (i : S50000x128.Idx) (q : Cert.ReferenceIdeal.dot_S50000x128_S128x128_S50000x128_1_0_0_1_n_n.contr.Idx) : (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem whole_rhs_0 (i : S50000x128.Idx) (q : Cert.ReferenceIdeal.dot_S50000x128_S128x128_S50000x128_1_0_0_1_n_n.contr.Idx) : (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem whole_rhs_1 (i : S50000x128.Idx) (q : Cert.ReferenceIdeal.dot_S50000x128_S128x128_S50000x128_1_0_0_1_n_n.contr.Idx) : (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- At the ideal instance the host's contraction of the left array's columns with the right array's rows is the product,
    entry by entry. -/
theorem dot_eq_prod (A : S50000x128.Idx → Elt Ideal .f32) (B : S128x128.Idx → Elt Ideal .f32) :
    Host.dotGeneral (F := Ideal) (φ₁ := .f32) (φ₂ := .f32) Cert.ReferenceIdeal.dot_S50000x128_S128x128_S50000x128_1_0_0_1_n_n none A B = prod A B := by
  funext i
  simp only [Host.dotGeneral]
  rw [Ideal.dotGeneral_apply, ← Equiv.sum_comp (ValueIdx.contrEquiv1 Cert.ReferenceIdeal.dot_S50000x128_S128x128_S50000x128_1_0_0_1_n_n 128 rfl rfl).symm]
  unfold prod
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = li i k := funext fun a => Fin.ext (by
    match a with
    | ⟨0, _⟩ => exact whole_lhs_0 _ _
    | ⟨1, _⟩ => exact (whole_lhs_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = ri i k := funext fun a => Fin.ext (by
    match a with
    | ⟨0, _⟩ => exact (whole_rhs_0 _ _).trans hk
    | ⟨1, _⟩ => exact whole_rhs_1 _ _)
  rw [el, er]

end Cert.KernelIdeal.Product2

end
-- ==== Proof.Product3.lean ====
/-
  The third dense transform. Region 2 of the program walks the 50 row blocks of 1000 rows of the left matrix
  (50000 × 128); at block `t` it multiplies rows `1000·t … 1000·t + 999` by the WHOLE right matrix (128 × 47), into a
  zero accumulator, and writes the 1000 × 47 result back as rows `1000·t … 1000·t + 999` of the output. At the ideal
  instance the change of float format before the product is the identity and the zero accumulator adds nothing, so entry
  `(r, q)` of block `t` is `∑ k, A (1000·t + r, k) · B (k, q)`: exactly entry `(1000·t + r, q)` of the whole product
  `A · B`. The 50 blocks tile the 50000 rows, so the array the region leaves is the whole product — the same sum the
  host's `dot_general` of the two arrays is, whatever the entries are (no finiteness is used: only the order-free
  finite sum of the extended reals).
-/
import proofs.«176923_j69956427317871_1_alg».proof.Proof.Gen.KernelIdeal.Frame
import proofs.«176923_j69956427317871_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Product3

open Cert.KernelIdeal Cert.KernelIdeal.Gen Idealize.ShloMosaic Idealize.ShloMosaic.TcCoe Idealize.SL.Sem
open Idealize.ShloMosaic.Pipeline (Dat)

/-! ## The product, entry by entry -/

/-- The left factor's index of the `k`-th term of entry `i` of the whole product: `(row of i, k)`. -/
abbrev li (i : S50000x47.Idx) (k : Fin 128) : S50000x128.Idx := fun a => match a with
  | ⟨0, _⟩ => ⟨(i 0).val, (i 0).isLt⟩
  | ⟨1, _⟩ => ⟨k.val, k.isLt⟩
/-- The right factor's index of that term: `(k, column of i)`. -/
abbrev ri (i : S50000x47.Idx) (k : Fin 128) : S128x47.Idx := fun a => match a with
  | ⟨0, _⟩ => ⟨k.val, k.isLt⟩
  | ⟨1, _⟩ => ⟨(i 1).val, (i 1).isLt⟩
/-- The same two indices inside one block of 1000 rows. -/
abbrev bli (j : S1000x47.Idx) (k : Fin 128) : S1000x128.Idx := fun a => match a with
  | ⟨0, _⟩ => ⟨(j 0).val, (j 0).isLt⟩
  | ⟨1, _⟩ => ⟨k.val, k.isLt⟩
abbrev bri (j : S1000x47.Idx) (k : Fin 128) : S128x47.Idx := fun a => match a with
  | ⟨0, _⟩ => ⟨k.val, k.isLt⟩
  | ⟨1, _⟩ => ⟨(j 1).val, (j 1).isLt⟩

/-- The whole product `A · B`, entry by entry, on the extended reals. -/
def prod (A : S50000x128.Idx → Elt Ideal .f32) (B : S128x47.Idx → Elt Ideal .f32) : S50000x47.Idx → Elt Ideal .f32 :=
  fun i => ∑ k : Fin 128, A (li i k) * B (ri i k)

/-! ## One block: the body's product at an entry -/

theorem blk_lhs_0 (j : S1000x47.Idx) (q : dot_S1000x128_S128x47_S1000x47_1_0_0_1_n_n.contr.Idx) : (dot_S1000x128_S128x47_S1000x47_1_0_0_1_n_n.lhsIdx j q 0).val = (j 0).val := by
  unfold DotDims.lhsIdx
  rw [dif_neg (show ¬(0 : Fin S1000x128.rank) ∈ dot_S1000x128_S128x47_S1000x47_1_0_0_1_n_n.lhsBatch by decide), dif_pos (show (0 : Fin S1000x128.rank) ∈ dot_S1000x128_S128x47_S1000x47_1_0_0_1_n_n.lhsNonContracting by decide)]
  rfl
theorem blk_lhs_1 (j : S1000x47.Idx) (q : dot_S1000x128_S128x47_S1000x47_1_0_0_1_n_n.contr.Idx) : (dot_S1000x128_S128x47_S1000x47_1_0_0_1_n_n.lhsIdx j q 1).val = (q ⟨0, by decide⟩).val :=
  dot_S1000x128_S128x47_S1000x47_1_0_0_1_n_n.lhsIdx_val_of_single rfl j q
theorem blk_rhs_0 (j : S1000x47.Idx) (q : dot_S1000x128_S128x47_S1000x47_1_0_0_1_n_n.contr.Idx) : (dot_S1000x128_S128x47_S1000x47_1_0_0_1_n_n.rhsIdx j q 0).val = (q ⟨0, by decide⟩).val :=
  dot_S1000x128_S128x47_S1000x47_1_0_0_1_n_n.rhsIdx_val_of_single rfl j q
theorem blk_rhs_1 (j : S1000x47.Idx) (q : dot_S1000x128_S128x47_S1000x47_1_0_0_1_n_n.contr.Idx) : (dot_S1000x128_S128x47_S1000x47_1_0_0_1_n_n.rhsIdx j q 1).val = (j 1).val := by
  unfold DotDims.rhsIdx
  rw [dif_neg (show ¬(1 : Fin S128x47.rank) ∈ dot_S1000x128_S128x47_S1000x47_1_0_0_1_n_n.rhsBatch by decide), dif_pos (show (1 : Fin S128x47.rank) ∈ dot_S1000x128_S128x47_S1000x47_1_0_0_1_n_n.rhsNonContracting by decide)]
  rfl

/-- The body's stored value is the matrix product of its two loaded blocks into a zero accumulator (the format
    changes before it are the identity at the ideal instance; the cast to the same shape is the identity). -/
theorem pay_eq (x0 : FVec Ideal S1000x128 .f32) (x1 : FVec Ideal S128x47 .f32) :
    k2_pay1 (F := Ideal) x0 x1 = FloatOps.matmul dot_S1000x128_S128x47_S1000x47_1_0_0_1_n_n none x0 x1 (constant (F := Ideal) S1000x47 .f32 0x00000000#32) := by
  unfold k2_pay1
  rw [shapeCast_self]
  rfl

/-- Entry `j` of the block the body stores: the sum over `k` of the left block at `(row of j, k)` times the right
    matrix at `(k, column of j)`. -/
theorem pay_apply (x0 : FVec Ideal S1000x128 .f32) (x1 : FVec Ideal S128x47 .f32) (j : S1000x47.Idx) :
    k2_pay1 (F := Ideal) x0 x1 j = ∑ k : Fin 128, x0 (bli j k) * x1 (bri j k) := by
  rw [pay_eq, Ideal.matmul_constant_zero_apply, ← Equiv.sum_comp (ValueIdx.contrEquiv1 dot_S1000x128_S128x47_S1000x47_1_0_0_1_n_n 128 rfl rfl).symm]
  refine Finset.sum_congr rfl fun k _ => ?_
  have hk := ValueIdx.contrEquiv1_symm_val dot_S1000x128_S128x47_S1000x47_1_0_0_1_n_n 128 rfl rfl k
  have el : dot_S1000x128_S128x47_S1000x47_1_0_0_1_n_n.lhsIdx j ((ValueIdx.contrEquiv1 dot_S1000x128_S128x47_S1000x47_1_0_0_1_n_n 128 rfl rfl).symm k) = bli j k := funext fun a => Fin.ext (by
    match a with
    | ⟨0, _⟩ => exact blk_lhs_0 _ _
    | ⟨1, _⟩ => exact (blk_lhs_1 _ _).trans hk)
  have er : dot_S1000x128_S128x47_S1000x47_1_0_0_1_n_n.rhsIdx j ((ValueIdx.contrEquiv1 dot_S1000x128_S128x47_S1000x47_1_0_0_1_n_n 128 rfl rfl).symm k) = bri j k := funext fun a => Fin.ext (by
    match a with
    | ⟨0, _⟩ => exact (blk_rhs_0 _ _).trans hk
    | ⟨1, _⟩ => exact blk_rhs_1 _ _)
  rw [el, er]

/-! ## Block `t` of the output is block `t` of the whole product -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 50 grid points: the left matrix's block and the output's block are both block row
    `t`; the right matrix is one block. -/
theorem idx_facts : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- Every block row of the output is some point's. -/
theorem idx_onto : ∀ q0 : Fin 50, ∃ t : Fin cfg2.N, win2_2.index t = ![q0.val, 0] :=
  (by decide +kernel : ∀ q0 : Fin 50, ∃ t : Fin grid2.N, win2_2.index t = ![q0.val, 0])

/-- What point `t` writes back is block `t` of the whole product of the two arrays as the region finds them: row `r` of
    the left block is row `1000·t + r` of the left array, and the right block is the right array. -/
theorem flushed_eq (c : Dev nD) (t : Fin cfg2.N) :
    (dat2 V c).flushed 2 t = ((cfg2.win 2).blk t).view.read (Elt Ideal) (prod (V c main_v64) (V c main_arg6)) := by
  show (cfg2.win 2).cut (grid2.coords t) ((dat2 V c).after 2 t) = _
  rw [after2_2]
  unfold out2_2
  rw [View.canon_unit_zero hz]
  simp only [View.ld_unit_zero (S := S1000x128) hz, View.ld_unit_zero (S := S128x47) hz]
  obtain ⟨e0, e1, e2, e3, e4⟩ := idx_facts t
  funext j
  show k2_pay1 (F := Ideal) (iblk2 V c 0 t) (iblk2 V c 1 t) j = prod (V c main_v64) (V c main_arg6) (((cfg2.win 2).blk t).view.emb j)
  refine (pay_apply (iblk2 V c 0 t) (iblk2 V c 1 t) j).trans ?_
  unfold prod
  refine Finset.sum_congr rfl fun k _ => ?_
  have h0 : iblk2 V c 0 t (bli j k) = V c main_v64 (li (((cfg2.win 2).blk t).view.emb j) k) := by
    show V c main_v64 (((cfg2.win 0).blk t).view.emb (bli j k)) = _
    refine congrArg (V c main_v64) (funext fun a => Fin.ext ?_)
    match a with
    | ⟨0, _⟩ => show win2_0.index t (0 : Fin 2) * 1000 + 1 * (j 0).val = win2_2.index t (0 : Fin 2) * 1000 + 1 * (j 0).val; omega
    | ⟨1, _⟩ => show win2_0.index t (1 : Fin 2) * 128 + 1 * k.val = k.val; omega
  have h1 : iblk2 V c 1 t (bri j k) = V c main_arg6 (ri (((cfg2.win 2).blk t).view.emb j) k) := by
    show V c main_arg6 (((cfg2.win 1).blk t).view.emb (bri j k)) = _
    refine congrArg (V c main_arg6) (funext fun a => Fin.ext ?_)
    match a with
    | ⟨0, _⟩ => show win2_1.index t (0 : Fin 2) * 128 + 1 * k.val = k.val; omega
    | ⟨1, _⟩ => show win2_1.index t (1 : Fin 2) * 47 + 1 * (j 1).val = win2_2.index t (1 : Fin 2) * 47 + 1 * (j 1).val; omega
  rw [h0, h1]

/-- An index of the output array is in point `t`'s block iff each coordinate is in the block's range on its axis. -/
theorem mem_blk (t : Fin cfg2.N) (i : S50000x47.Idx) :
    i ∈ ((cfg2.win 2).blk t).view.set ↔ ∀ a : Fin 2, win2_2.index t a * S1000x47.size a ≤ (i a).val ∧ (i a).val < win2_2.index t a * S1000x47.size a + S1000x47.size a := by
  show i ∈ ((View.whole main_v65).slice (win2_2.rect t)).set ↔ _
  rw [View.set_slice_whole, Rect.mem_set_unit]
  exact Iff.rfl

/-- The 50 blocks of 1000 rows cover the 50000 rows: row `r` is in block `r / 1000`. -/
theorem cover (i : S50000x47.Idx) : ∃ t : Fin cfg2.N, (cfg2.win 2).flush t = true ∧ i ∈ ((cfg2.win 2).blk t).view.set := by
  have hi0 : (i 0).val < 50000 := (i 0).isLt
  have hi1 : (i 1).val < 47 := (i 1).isLt
  obtain ⟨t, ht⟩ := idx_onto ⟨(i 0).val / 1000, by omega⟩
  have q0 : win2_2.index t (0 : Fin 2) = (i 0).val / 1000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 1000 ≤ (i 0).val ∧ (i 0).val < win2_2.index t (0 : Fin 2) * 1000 + 1000; omega
  | ⟨1, _⟩ => show win2_2.index t (1 : Fin 2) * 47 ≤ (i 1).val ∧ (i 1).val < win2_2.index t (1 : Fin 2) * 47 + 47; omega

/-- The array the region leaves is the whole product of the two arrays it found. -/
theorem final (c : Dev nD) : (dat2 V c).arrAt 2 cfg2.N = prod (V c main_v64) (V c main_arg6) :=
  (dat2 V c).arrAt_eq_of_cover 2 (prod (V c main_v64) (V c main_arg6)) (fun t _ => flushed_eq V c t) cover

end Blocks

/-! ## The host's `dot_general` is the same sum -/

theorem whole_lhs_0 (i : S50000x47.Idx) (q : Cert.ReferenceIdeal.dot_S50000x128_S128x47_S50000x47_1_0_0_1_n_n.contr.Idx) : (Cert.ReferenceIdeal.dot_S50000x128_S128x47_S50000x47_1_0_0_1_n_n.lhsIdx i q 0).val = (i 0).val := by
  unfold DotDims.lhsIdx
  rw [dif_neg (show ¬(0 : Fin S50000x128.rank) ∈ Cert.ReferenceIdeal.dot_S50000x128_S128x47_S50000x47_1_0_0_1_n_n.lhsBatch by decide), dif_pos (show (0 : Fin S50000x128.rank) ∈ Cert.ReferenceIdeal.dot_S50000x128_S128x47_S50000x47_1_0_0_1_n_n.lhsNonContracting by decide)]
  rfl
theorem whole_lhs_1 (i : S50000x47.Idx) (q : Cert.ReferenceIdeal.dot_S50000x128_S128x47_S50000x47_1_0_0_1_n_n.contr.Idx) : (Cert.ReferenceIdeal.dot_S50000x128_S128x47_S50000x47_1_0_0_1_n_n.lhsIdx i q 1).val = (q ⟨0, by decide⟩).val :=
  Cert.ReferenceIdeal.dot_S50000x128_S128x47_S50000x47_1_0_0_1_n_n.lhsIdx_val_of_single rfl i q
theorem whole_rhs_0 (i : S50000x47.Idx) (q : Cert.ReferenceIdeal.dot_S50000x128_S128x47_S50000x47_1_0_0_1_n_n.contr.Idx) : (Cert.ReferenceIdeal.dot_S50000x128_S128x47_S50000x47_1_0_0_1_n_n.rhsIdx i q 0).val = (q ⟨0, by decide⟩).val :=
  Cert.ReferenceIdeal.dot_S50000x128_S128x47_S50000x47_1_0_0_1_n_n.rhsIdx_val_of_single rfl i q
theorem whole_rhs_1 (i : S50000x47.Idx) (q : Cert.ReferenceIdeal.dot_S50000x128_S128x47_S50000x47_1_0_0_1_n_n.contr.Idx) : (Cert.ReferenceIdeal.dot_S50000x128_S128x47_S50000x47_1_0_0_1_n_n.rhsIdx i q 1).val = (i 1).val := by
  unfold DotDims.rhsIdx
  rw [dif_neg (show ¬(1 : Fin S128x47.rank) ∈ Cert.ReferenceIdeal.dot_S50000x128_S128x47_S50000x47_1_0_0_1_n_n.rhsBatch by decide), dif_pos (show (1 : Fin S128x47.rank) ∈ Cert.ReferenceIdeal.dot_S50000x128_S128x47_S50000x47_1_0_0_1_n_n.rhsNonContracting by decide)]
  rfl

/-- At the ideal instance the host's contraction of the left array's columns with the right array's rows is the product,
    entry by entry. -/
theorem dot_eq_prod (A : S50000x128.Idx → Elt Ideal .f32) (B : S128x47.Idx → Elt Ideal .f32) :
    Host.dotGeneral (F := Ideal) (φ₁ := .f32) (φ₂ := .f32) Cert.ReferenceIdeal.dot_S50000x128_S128x47_S50000x47_1_0_0_1_n_n none A B = prod A B := by
  funext i
  simp only [Host.dotGeneral]
  rw [Ideal.dotGeneral_apply, ← Equiv.sum_comp (ValueIdx.contrEquiv1 Cert.ReferenceIdeal.dot_S50000x128_S128x47_S50000x47_1_0_0_1_n_n 128 rfl rfl).symm]
  unfold prod
  refine Finset.sum_congr rfl fun k _ => ?_
  have hk := ValueIdx.contrEquiv1_symm_val Cert.ReferenceIdeal.dot_S50000x128_S128x47_S50000x47_1_0_0_1_n_n 128 rfl rfl k
  have el : Cert.ReferenceIdeal.dot_S50000x128_S128x47_S50000x47_1_0_0_1_n_n.lhsIdx i ((ValueIdx.contrEquiv1 Cert.ReferenceIdeal.dot_S50000x128_S128x47_S50000x47_1_0_0_1_n_n 128 rfl rfl).symm k) = li i k := funext fun a => Fin.ext (by
    match a with
    | ⟨0, _⟩ => exact whole_lhs_0 _ _
    | ⟨1, _⟩ => exact (whole_lhs_1 _ _).trans hk)
  have er : Cert.ReferenceIdeal.dot_S50000x128_S128x47_S50000x47_1_0_0_1_n_n.rhsIdx i ((ValueIdx.contrEquiv1 Cert.ReferenceIdeal.dot_S50000x128_S128x47_S50000x47_1_0_0_1_n_n 128 rfl rfl).symm k) = ri i k := funext fun a => Fin.ext (by
    match a with
    | ⟨0, _⟩ => exact (whole_rhs_0 _ _).trans hk
    | ⟨1, _⟩ => exact whole_rhs_1 _ _)
  rw [el, er]

end Cert.KernelIdeal.Product3

end
-- ==== Proof.Fold.lean ====
/-
  The contents of the idealized program's buffers at each boundary of its nine segments, read back as functions of the
  eight arguments. Outside its three dense transforms the program applies to them the reference's own host operations, in
  the reference's order: the edge lists with their self loops, the degrees, the symmetric edge weights; per layer the gather
  of the transformed rows along the sources, the scaling by the edge weights, the sum into the destinations, the bias, and
  (after the first two layers) the ReLU. So each buffer that matters is named by the reference's own stage function of the
  arguments, and a stretch of host operations is never opened: it is the same composition on both sides. The only place
  where the two programs differ is a dense transform, and there the region leaves the whole matrix product of the arrays it
  found (the three product modules), which is the host's contraction. A buffer no later segment writes keeps its contents.
-/
import proofs.«176923_j69956427317871_1_alg».proof.Proof.Gen.KernelIdeal.Frame
import proofs.«176923_j69956427317871_1_alg».proof.Proof.Gen.ReferenceIdeal.Read
import proofs.«176923_j69956427317871_1_alg».proof.Proof.Product1
import proofs.«176923_j69956427317871_1_alg».proof.Proof.Product2
import proofs.«176923_j69956427317871_1_alg».proof.Proof.Product3
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem
open Cert.ReferenceIdeal.Read (val_main_v3 val_main_v6 val_main_v28 val_main_v29 val_main_v45 val_main_v46 val_main_v47
  val_main_v63 val_main_v64 val_main_v65 val_main_v81)

variable (m : (ℓ : Loc nD τ sig) → Buf (Elt Ideal) ℓ) (ρ : Dev nD → PrngReg) (c : Dev nD)

/-! ## After the first stretch: the edge lists, the edge weights, and the arguments -/

theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

theorem W1_v6 : W1 m ρ c (Proc.devRef .tc main_v6) = val_main_v6 (F := Ideal) (m ((c : Thread nD τ).loc main_arg1)) := by
  show StableHlo.after hostOps0 (W0 m ρ c) (Proc.devRef .tc main_v6) = _
  after_results_simp
  rfl

theorem W1_v28 : W1 m ρ c (Proc.devRef .tc main_v28) = val_main_v28 (F := Ideal) (m ((c : Thread nD τ).loc main_arg1)) := by
  show StableHlo.after hostOps0 (W0 m ρ c) (Proc.devRef .tc main_v28) = _
  after_results_simp
  rfl

theorem W1_arg0 : W1 m ρ c (Proc.devRef .tc main_arg0) = (m ((c : Thread nD τ).loc main_arg0)) := by
  show StableHlo.after hostOps0 (W0 m ρ c) (Proc.devRef .tc main_arg0) = _
  after_results_simp <;> rfl

theorem W1_arg2 : W1 m ρ c (Proc.devRef .tc main_arg2) = (m ((c : Thread nD τ).loc main_arg2)) := by
  show StableHlo.after hostOps0 (W0 m ρ c) (Proc.devRef .tc main_arg2) = _
  after_results_simp <;> rfl

theorem W1_arg3 : W1 m ρ c (Proc.devRef .tc main_arg3) = (m ((c : Thread nD τ).loc main_arg3)) := by
  show StableHlo.after hostOps0 (W0 m ρ c) (Proc.devRef .tc main_arg3) = _
  after_results_simp <;> rfl

theorem W1_arg4 : W1 m ρ c (Proc.devRef .tc main_arg4) = (m ((c : Thread nD τ).loc main_arg4)) := by
  show StableHlo.after hostOps0 (W0 m ρ c) (Proc.devRef .tc main_arg4) = _
  after_results_simp <;> rfl

theorem W1_arg5 : W1 m ρ c (Proc.devRef .tc main_arg5) = (m ((c : Thread nD τ).loc main_arg5)) := by
  show StableHlo.after hostOps0 (W0 m ρ c) (Proc.devRef .tc main_arg5) = _
  after_results_simp <;> rfl

theorem W1_arg6 : W1 m ρ c (Proc.devRef .tc main_arg6) = (m ((c : Thread nD τ).loc main_arg6)) := by
  show StableHlo.after hostOps0 (W0 m ρ c) (Proc.devRef .tc main_arg6) = _
  after_results_simp <;> rfl

theorem W1_arg7 : W1 m ρ c (Proc.devRef .tc main_arg7) = (m ((c : Thread nD τ).loc main_arg7)) := by
  show StableHlo.after hostOps0 (W0 m ρ c) (Proc.devRef .tc main_arg7) = _
  after_results_simp <;> rfl

/-! ## After the first dense transform -/

theorem W2_v29 : W2 m ρ c (Proc.devRef .tc main_v29) = val_main_v29 (F := Ideal) (m ((c : Thread nD τ).loc main_arg0)) (m ((c : Thread nD τ).loc main_arg2)) := by
  refine (W2_arr m ρ c 2).trans ?_
  rw [Product1.final (V1 m ρ) c]
  show Product1.prod (W1 m ρ c (Proc.devRef .tc main_arg0)) (W1 m ρ c (Proc.devRef .tc main_arg2)) = _
  rw [W1_arg0 m ρ c, W1_arg2 m ρ c, ← Product1.dot_eq_prod]
  rfl

theorem W2_v3 : W2 m ρ c (Proc.devRef .tc main_v3) = val_main_v3 (F := Ideal) (m ((c : Thread nD τ).loc main_arg1)) :=
  (W2_of_ne m ρ c main_v3 (by decide)).trans (W1_v3 m ρ c)

theorem W2_v6 : W2 m ρ c (Proc.devRef .tc main_v6) = val_main_v6 (F := Ideal) (m ((c : Thread nD τ).loc main_arg1)) :=
  (W2_of_ne m ρ c main_v6 (by decide)).trans (W1_v6 m ρ c)

theorem W2_v28 : W2 m ρ c (Proc.devRef .tc main_v28) = val_main_v28 (F := Ideal) (m ((c : Thread nD τ).loc main_arg1)) :=
  (W2_of_ne m ρ c main_v28 (by decide)).trans (W1_v28 m ρ c)

theorem W2_arg3 : W2 m ρ c (Proc.devRef .tc main_arg3) = (m ((c : Thread nD τ).loc main_arg3)) :=
  (W2_of_ne m ρ c main_arg3 (by decide)).trans (W1_arg3 m ρ c)

theorem W2_arg4 : W2 m ρ c (Proc.devRef .tc main_arg4) = (m ((c : Thread nD τ).loc main_arg4)) :=
  (W2_of_ne m ρ c main_arg4 (by decide)).trans (W1_arg4 m ρ c)

theorem W2_arg5 : W2 m ρ c (Proc.devRef .tc main_arg5) = (m ((c : Thread nD τ).loc main_arg5)) :=
  (W2_of_ne m ρ c main_arg5 (by decide)).trans (W1_arg5 m ρ c)

theorem W2_arg6 : W2 m ρ c (Proc.devRef .tc main_arg6) = (m ((c : Thread nD τ).loc main_arg6)) :=
  (W2_of_ne m ρ c main_arg6 (by decide)).trans (W1_arg6 m ρ c)

theorem W2_arg7 : W2 m ρ c (Proc.devRef .tc main_arg7) = (m ((c : Thread nD τ).loc main_arg7)) :=
  (W2_of_ne m ρ c main_arg7 (by decide)).trans (W1_arg7 m ρ c)

/-! ## The first layer's aggregation, bias and ReLU -/

theorem W3_v45 : W3 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v45) = _
  after_results_simp
  rw [W2_v29 m ρ c, W2_v3 m ρ c, W2_v6 m ρ c, W2_v28 m ρ c, W2_arg3 m ρ c]
  rfl

theorem W3_v3 : W3 m ρ c (Proc.devRef .tc main_v3) = val_main_v3 (F := Ideal) (m ((c : Thread nD τ).loc main_arg1)) := by
  refine Eq.trans ?_ (W2_v3 m ρ c)
  show StableHlo.after hostOps1 (W2 m ρ c) (Proc.devRef .tc main_v3) = W2 m ρ c (Proc.devRef .tc main_v3)
  after_results

theorem W3_v6 : W3 m ρ c (Proc.devRef .tc main_v6) = val_main_v6 (F := Ideal) (m ((c : Thread nD τ).loc main_arg1)) := by
  refine Eq.trans ?_ (W2_v6 m ρ c)
  show StableHlo.after hostOps1 (W2 m ρ c) (Proc.devRef .tc main_v6) = W2 m ρ c (Proc.devRef .tc main_v6)
  after_results

theorem W3_v28 : W3 m ρ c (Proc.devRef .tc main_v28) = val_main_v28 (F := Ideal) (m ((c : Thread nD τ).loc main_arg1)) := by
  refine Eq.trans ?_ (W2_v28 m ρ c)
  show StableHlo.after hostOps1 (W2 m ρ c) (Proc.devRef .tc main_v28) = W2 m ρ c (Proc.devRef .tc main_v28)
  after_results

theorem W3_arg4 : W3 m ρ c (Proc.devRef .tc main_arg4) = (m ((c : Thread nD τ).loc main_arg4)) := by
  refine Eq.trans ?_ (W2_arg4 m ρ c)
  show StableHlo.after hostOps1 (W2 m ρ c) (Proc.devRef .tc main_arg4) = W2 m ρ c (Proc.devRef .tc main_arg4)
  after_results

theorem W3_arg5 : W3 m ρ c (Proc.devRef .tc main_arg5) = (m ((c : Thread nD τ).loc main_arg5)) := by
  refine Eq.trans ?_ (W2_arg5 m ρ c)
  show StableHlo.after hostOps1 (W2 m ρ c) (Proc.devRef .tc main_arg5) = W2 m ρ c (Proc.devRef .tc main_arg5)
  after_results

theorem W3_arg6 : W3 m ρ c (Proc.devRef .tc main_arg6) = (m ((c : Thread nD τ).loc main_arg6)) := by
  refine Eq.trans ?_ (W2_arg6 m ρ c)
  show StableHlo.after hostOps1 (W2 m ρ c) (Proc.devRef .tc main_arg6) = W2 m ρ c (Proc.devRef .tc main_arg6)
  after_results

theorem W3_arg7 : W3 m ρ c (Proc.devRef .tc main_arg7) = (m ((c : Thread nD τ).loc main_arg7)) := by
  refine Eq.trans ?_ (W2_arg7 m ρ c)
  show StableHlo.after hostOps1 (W2 m ρ c) (Proc.devRef .tc main_arg7) = W2 m ρ c (Proc.devRef .tc main_arg7)
  after_results

theorem W4_v46 : W4 m ρ c (Proc.devRef .tc main_v46) = val_main_v46 (F := Ideal) (m ((c : Thread nD τ).loc main_arg0)) (m ((c : Thread nD τ).loc main_arg1)) (m ((c : Thread nD τ).loc main_arg2)) (m ((c : Thread nD τ).loc main_arg3)) := by
  have hin := W3_v45 m ρ c
  show StableHlo.after hostOps1_1 (W3 m ρ c) (Proc.devRef .tc main_v46) = _
  generalize W3 m ρ c = U at hin ⊢
  after_results_simp
  show maximumf (U (Proc.devRef .tc main_v45)) (broadcastInDim S50000x128 ![] bcast_S_S50000x128 (constant (F := Ideal) S_ .f32 0x00000000#32)) = _
  rw [hin]
  rfl

theorem W4_v3 : W4 m ρ c (Proc.devRef .tc main_v3) = val_main_v3 (F := Ideal) (m ((c : Thread nD τ).loc main_arg1)) := by
  refine Eq.trans ?_ (W3_v3 m ρ c)
  show StableHlo.after hostOps1_1 (W3 m ρ c) (Proc.devRef .tc main_v3) = W3 m ρ c (Proc.devRef .tc main_v3)
  after_results

theorem W4_v6 : W4 m ρ c (Proc.devRef .tc main_v6) = val_main_v6 (F := Ideal) (m ((c : Thread nD τ).loc main_arg1)) := by
  refine Eq.trans ?_ (W3_v6 m ρ c)
  show StableHlo.after hostOps1_1 (W3 m ρ c) (Proc.devRef .tc main_v6) = W3 m ρ c (Proc.devRef .tc main_v6)
  after_results

theorem W4_v28 : W4 m ρ c (Proc.devRef .tc main_v28) = val_main_v28 (F := Ideal) (m ((c : Thread nD τ).loc main_arg1)) := by
  refine Eq.trans ?_ (W3_v28 m ρ c)
  show StableHlo.after hostOps1_1 (W3 m ρ c) (Proc.devRef .tc main_v28) = W3 m ρ c (Proc.devRef .tc main_v28)
  after_results

theorem W4_arg4 : W4 m ρ c (Proc.devRef .tc main_arg4) = (m ((c : Thread nD τ).loc main_arg4)) := by
  refine Eq.trans ?_ (W3_arg4 m ρ c)
  show StableHlo.after hostOps1_1 (W3 m ρ c) (Proc.devRef .tc main_arg4) = W3 m ρ c (Proc.devRef .tc main_arg4)
  after_results

theorem W4_arg5 : W4 m ρ c (Proc.devRef .tc main_arg5) = (m ((c : Thread nD τ).loc main_arg5)) := by
  refine Eq.trans ?_ (W3_arg5 m ρ c)
  show StableHlo.after hostOps1_1 (W3 m ρ c) (Proc.devRef .tc main_arg5) = W3 m ρ c (Proc.devRef .tc main_arg5)
  after_results

theorem W4_arg6 : W4 m ρ c (Proc.devRef .tc main_arg6) = (m ((c : Thread nD τ).loc main_arg6)) := by
  refine Eq.trans ?_ (W3_arg6 m ρ c)
  show StableHlo.after hostOps1_1 (W3 m ρ c) (Proc.devRef .tc main_arg6) = W3 m ρ c (Proc.devRef .tc main_arg6)
  after_results

theorem W4_arg7 : W4 m ρ c (Proc.devRef .tc main_arg7) = (m ((c : Thread nD τ).loc main_arg7)) := by
  refine Eq.trans ?_ (W3_arg7 m ρ c)
  show StableHlo.after hostOps1_1 (W3 m ρ c) (Proc.devRef .tc main_arg7) = W3 m ρ c (Proc.devRef .tc main_arg7)
  after_results

/-! ## After the second dense transform -/

theorem W5_v47 : W5 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  rw [Product2.final (V4 m ρ) c]
  show Product2.prod (W4 m ρ c (Proc.devRef .tc main_v46)) (W4 m ρ c (Proc.devRef .tc main_arg4)) = _
  rw [W4_v46 m ρ c, W4_arg4 m ρ c, ← Product2.dot_eq_prod]
  rfl

theorem W5_v3 : W5 m ρ c (Proc.devRef .tc main_v3) = val_main_v3 (F := Ideal) (m ((c : Thread nD τ).loc main_arg1)) :=
  (W5_of_ne m ρ c main_v3 (by decide)).trans (W4_v3 m ρ c)

theorem W5_v6 : W5 m ρ c (Proc.devRef .tc main_v6) = val_main_v6 (F := Ideal) (m ((c : Thread nD τ).loc main_arg1)) :=
  (W5_of_ne m ρ c main_v6 (by decide)).trans (W4_v6 m ρ c)

theorem W5_v28 : W5 m ρ c (Proc.devRef .tc main_v28) = val_main_v28 (F := Ideal) (m ((c : Thread nD τ).loc main_arg1)) :=
  (W5_of_ne m ρ c main_v28 (by decide)).trans (W4_v28 m ρ c)

theorem W5_arg5 : W5 m ρ c (Proc.devRef .tc main_arg5) = (m ((c : Thread nD τ).loc main_arg5)) :=
  (W5_of_ne m ρ c main_arg5 (by decide)).trans (W4_arg5 m ρ c)

theorem W5_arg6 : W5 m ρ c (Proc.devRef .tc main_arg6) = (m ((c : Thread nD τ).loc main_arg6)) :=
  (W5_of_ne m ρ c main_arg6 (by decide)).trans (W4_arg6 m ρ c)

theorem W5_arg7 : W5 m ρ c (Proc.devRef .tc main_arg7) = (m ((c : Thread nD τ).loc main_arg7)) :=
  (W5_of_ne m ρ c main_arg7 (by decide)).trans (W4_arg7 m ρ c)

/-! ## The second layer's aggregation, bias and ReLU -/

theorem W6_v63 : W6 m ρ c (Proc.devRef .tc main_v63) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W5 m ρ c) (Proc.devRef .tc main_v63) = _
  after_results_simp
  rw [W5_v47 m ρ c, W5_v3 m ρ c, W5_v6 m ρ c, W5_v28 m ρ c, W5_arg5 m ρ c]
  rfl

theorem W6_v3 : W6 m ρ c (Proc.devRef .tc main_v3) = val_main_v3 (F := Ideal) (m ((c : Thread nD τ).loc main_arg1)) := by
  refine Eq.trans ?_ (W5_v3 m ρ c)
  show StableHlo.after hostOps2 (W5 m ρ c) (Proc.devRef .tc main_v3) = W5 m ρ c (Proc.devRef .tc main_v3)
  after_results

theorem W6_v6 : W6 m ρ c (Proc.devRef .tc main_v6) = val_main_v6 (F := Ideal) (m ((c : Thread nD τ).loc main_arg1)) := by
  refine Eq.trans ?_ (W5_v6 m ρ c)
  show StableHlo.after hostOps2 (W5 m ρ c) (Proc.devRef .tc main_v6) = W5 m ρ c (Proc.devRef .tc main_v6)
  after_results

theorem W6_v28 : W6 m ρ c (Proc.devRef .tc main_v28) = val_main_v28 (F := Ideal) (m ((c : Thread nD τ).loc main_arg1)) := by
  refine Eq.trans ?_ (W5_v28 m ρ c)
  show StableHlo.after hostOps2 (W5 m ρ c) (Proc.devRef .tc main_v28) = W5 m ρ c (Proc.devRef .tc main_v28)
  after_results

theorem W6_arg6 : W6 m ρ c (Proc.devRef .tc main_arg6) = (m ((c : Thread nD τ).loc main_arg6)) := by
  refine Eq.trans ?_ (W5_arg6 m ρ c)
  show StableHlo.after hostOps2 (W5 m ρ c) (Proc.devRef .tc main_arg6) = W5 m ρ c (Proc.devRef .tc main_arg6)
  after_results

theorem W6_arg7 : W6 m ρ c (Proc.devRef .tc main_arg7) = (m ((c : Thread nD τ).loc main_arg7)) := by
  refine Eq.trans ?_ (W5_arg7 m ρ c)
  show StableHlo.after hostOps2 (W5 m ρ c) (Proc.devRef .tc main_arg7) = W5 m ρ c (Proc.devRef .tc main_arg7)
  after_results

theorem W7_v64 : W7 m ρ c (Proc.devRef .tc main_v64) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hin := W6_v63 m ρ c
  show StableHlo.after hostOps2_1 (W6 m ρ c) (Proc.devRef .tc main_v64) = _
  generalize W6 m ρ c = U at hin ⊢
  after_results_simp
  show maximumf (U (Proc.devRef .tc main_v63)) (broadcastInDim S50000x128 ![] bcast_S_S50000x128 (constant (F := Ideal) S_ .f32 0x00000000#32)) = _
  rw [hin]
  rfl

theorem W7_v3 : W7 m ρ c (Proc.devRef .tc main_v3) = val_main_v3 (F := Ideal) (m ((c : Thread nD τ).loc main_arg1)) := by
  refine Eq.trans ?_ (W6_v3 m ρ c)
  show StableHlo.after hostOps2_1 (W6 m ρ c) (Proc.devRef .tc main_v3) = W6 m ρ c (Proc.devRef .tc main_v3)
  after_results

theorem W7_v6 : W7 m ρ c (Proc.devRef .tc main_v6) = val_main_v6 (F := Ideal) (m ((c : Thread nD τ).loc main_arg1)) := by
  refine Eq.trans ?_ (W6_v6 m ρ c)
  show StableHlo.after hostOps2_1 (W6 m ρ c) (Proc.devRef .tc main_v6) = W6 m ρ c (Proc.devRef .tc main_v6)
  after_results

theorem W7_v28 : W7 m ρ c (Proc.devRef .tc main_v28) = val_main_v28 (F := Ideal) (m ((c : Thread nD τ).loc main_arg1)) := by
  refine Eq.trans ?_ (W6_v28 m ρ c)
  show StableHlo.after hostOps2_1 (W6 m ρ c) (Proc.devRef .tc main_v28) = W6 m ρ c (Proc.devRef .tc main_v28)
  after_results

theorem W7_arg6 : W7 m ρ c (Proc.devRef .tc main_arg6) = (m ((c : Thread nD τ).loc main_arg6)) := by
  refine Eq.trans ?_ (W6_arg6 m ρ c)
  show StableHlo.after hostOps2_1 (W6 m ρ c) (Proc.devRef .tc main_arg6) = W6 m ρ c (Proc.devRef .tc main_arg6)
  after_results

theorem W7_arg7 : W7 m ρ c (Proc.devRef .tc main_arg7) = (m ((c : Thread nD τ).loc main_arg7)) := by
  refine Eq.trans ?_ (W6_arg7 m ρ c)
  show StableHlo.after hostOps2_1 (W6 m ρ c) (Proc.devRef .tc main_arg7) = W6 m ρ c (Proc.devRef .tc main_arg7)
  after_results

/-! ## After the third dense transform -/

theorem W8_v65 : W8 m ρ c (Proc.devRef .tc main_v65) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  rw [Product3.final (V7 m ρ) c]
  show Product3.prod (W7 m ρ c (Proc.devRef .tc main_v64)) (W7 m ρ c (Proc.devRef .tc main_arg6)) = _
  rw [W7_v64 m ρ c, W7_arg6 m ρ c, ← Product3.dot_eq_prod]
  rfl

theorem W8_v3 : W8 m ρ c (Proc.devRef .tc main_v3) = val_main_v3 (F := Ideal) (m ((c : Thread nD τ).loc main_arg1)) :=
  (W8_of_ne m ρ c main_v3 (by decide)).trans (W7_v3 m ρ c)

theorem W8_v6 : W8 m ρ c (Proc.devRef .tc main_v6) = val_main_v6 (F := Ideal) (m ((c : Thread nD τ).loc main_arg1)) :=
  (W8_of_ne m ρ c main_v6 (by decide)).trans (W7_v6 m ρ c)

theorem W8_v28 : W8 m ρ c (Proc.devRef .tc main_v28) = val_main_v28 (F := Ideal) (m ((c : Thread nD τ).loc main_arg1)) :=
  (W8_of_ne m ρ c main_v28 (by decide)).trans (W7_v28 m ρ c)

theorem W8_arg7 : W8 m ρ c (Proc.devRef .tc main_arg7) = (m ((c : Thread nD τ).loc main_arg7)) :=
  (W8_of_ne m ρ c main_arg7 (by decide)).trans (W7_arg7 m ρ c)

/-! ## The third layer's aggregation and bias: the result -/

/-- The last boundary's contents at the result buffer: the reference's own composition of the arguments. -/
theorem W9_v81 : W9 m ρ c (Proc.devRef .tc main_v81) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W8 m ρ c) (Proc.devRef .tc main_v81) = _
  after_results_simp
  rw [W8_v65 m ρ c, W8_v3 m ρ c, W8_v6 m ρ c, W8_v28 m ρ c, W8_arg7 m ρ c]
  rfl

end Cert.KernelIdeal.Fold

end
-- ==== Proof.lean ====
/-
  A three-layer graph convolution: per layer a dense transform `H · W`, then the gather of the transformed rows along the
  edges' sources, the scaling by the symmetric edge weights `deg^(-1/2)[src] · deg^(-1/2)[dst]`, the sum into the edges'
  destinations, the bias, and after the first two layers the ReLU. The kernel's program and the reference apply the SAME host
  operations around the dense transforms; they differ only in how `H · W` is computed: the reference by one contraction,
  the kernel by 50 blocks of 1000 rows, each block's rows times the whole `W` into a zero accumulator after a change of
  float format. On the extended reals the change of format is the identity and the zero accumulator adds nothing, so each
  block is the corresponding 1000 rows of the whole product, the blocks tile the 50000 rows, and the array a region leaves
  is the contraction the reference computes (Proof/Product1–3). Reading the program's buffers boundary by boundary
  (Proof/Fold) its result is therefore the reference's own composition of the arguments, and the two results agree entry by
  entry whatever the inputs are: the precondition is not used, since only finite sums of the extended reals, in any order,
  are compared.
  The three frames are the programs' runs with the results dropped; the kernel's idealization rewrote no operation, so there
  is nothing to preserve.
-/
import proofs.«176923_j69956427317871_1_alg».proof.Defs
import proofs.«176923_j69956427317871_1_alg».proof.Proof.Gen.Kernel
import proofs.«176923_j69956427317871_1_alg».proof.Proof.Gen.Kernel.Skeleton
import proofs.«176923_j69956427317871_1_alg».proof.Proof.Gen.Kernel.Launch
import proofs.«176923_j69956427317871_1_alg».proof.Proof.Gen.Kernel.Points
import proofs.«176923_j69956427317871_1_alg».proof.Proof.Gen.Kernel.Frame
import proofs.«176923_j69956427317871_1_alg».proof.Proof.Gen.KernelIdeal
import proofs.«176923_j69956427317871_1_alg».proof.Proof.Gen.KernelIdeal.Skeleton
import proofs.«176923_j69956427317871_1_alg».proof.Proof.Gen.KernelIdeal.Launch
import proofs.«176923_j69956427317871_1_alg».proof.Proof.Gen.KernelIdeal.Points
import proofs.«176923_j69956427317871_1_alg».proof.Proof.Gen.KernelIdeal.Frame
import proofs.«176923_j69956427317871_1_alg».proof.Proof.Gen.ReferenceIdeal
import proofs.«176923_j69956427317871_1_alg».proof.Proof.Gen.ReferenceIdeal.Run
import proofs.«176923_j69956427317871_1_alg».proof.Proof.Gen.ReferenceIdeal.Read
import proofs.«176923_j69956427317871_1_alg».proof.Proof.Gen.Pre_finite_inputs
import proofs.«176923_j69956427317871_1_alg».proof.Proof.ResultRun
import proofs.«176923_j69956427317871_1_alg».proof.Proof.Fold
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at the reference's composition of the arguments: the kernel's by its run read
    boundary by boundary, the reference's by its run, the arguments agreeing. -/
theorem algebraic : Cert.algebraic_KernelIdeal_ReferenceIdeal := by
  intro m ρ m' ρ' _ hagree
  refine ⟨fun c => Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.W9_v81 m ρ c), (h c).2⟩) (Cert.KernelIdeal.ResultRun.run m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v81_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
